-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4000 : Shape := ⟨2, ![4096, 4000]⟩
abbrev S4000x64 : Shape := ⟨2, ![4000, 64]⟩
abbrev S4000x12288 : Shape := ⟨2, ![4000, 12288]⟩
abbrev S12288 : Shape := ⟨1, ![12288]⟩
abbrev S_ : Shape := ⟨0, ![]⟩

class Facts : Prop where
  bcast_S_S4096x4000 : S_.BroadcastsInDim S4096x4000 (![] : Fin 0 → Fin S4096x4000.rank)
  reducesTo_S4096x4000_S_d0_1 : S4096x4000.ReducesTo [0, 1] S_
  h_S_ : 0 < S_.numel
  bcast_S_S4000x64 : S_.BroadcastsInDim S4000x64 (![] : Fin 0 → Fin S4000x64.rank)
  reducesTo_S4000x64_S_d0_1 : S4000x64.ReducesTo [0, 1] S_
  bcast_S_S4000x12288 : S_.BroadcastsInDim S4000x12288 (![] : Fin 0 → Fin S4000x12288.rank)
  reducesTo_S4000x12288_S_d0_1 : S4000x12288.ReducesTo [0, 1] S_
  bcast_S_S12288 : S_.BroadcastsInDim S12288 (![] : Fin 0 → Fin S12288.rank)
  reducesTo_S12288_S_d0 : S12288.ReducesTo [0] S_

variable [Facts]

def fn_part1 {F : FTy → Type} [FloatOps F] (main_v13 : IVec S_ 1) (main_v16 : IVec S12288 1) : IVec S_ 1 :=
  let main_c_5 : IVec S_ 1 := constantI S_ 1 1#1
  let main_v17 : IVec S_ 1 := (fun x v => Host.reduce IntOp.andi x v reducesTo_S12288_S_d0 h_S_) main_v16 main_c_5
  let main_v18 : IVec S_ 1 := andi main_v13 main_v17
  main_v18

def fn {F : FTy → Type} [FloatOps F] (main_arg0 : FVec F S4096x4000 .f32) (main_arg1 : FVec F S4000x64 .f32) (main_arg2 : FVec F S4000x12288 .f32) (main_arg3 : FVec F S12288 .f32) : IVec S_ 1 :=
  let main_v0 : FVec F S4096x4000 .f32 := Host.absf main_arg0
  let main_cst : FVec F S_ .f32 := constant S_ .f32 0x7F800000#32
  let main_v1 : FVec F S4096x4000 .f32 := broadcastInDim S4096x4000 ![] bcast_S_S4096x4000 main_cst
  let main_v2 : IVec S4096x4000 1 := cmpf .olt main_v0 main_v1
  let main_c : IVec S_ 1 := constantI S_ 1 1#1
  let main_v3 : IVec S_ 1 := (fun x v => Host.reduce IntOp.andi x v reducesTo_S4096x4000_S_d0_1 h_S_) main_v2 main_c
  let main_v4 : FVec F S4000x64 .f32 := Host.absf main_arg1
  let main_cst_0 : FVec F S_ .f32 := constant S_ .f32 0x7F800000#32
  let main_v5 : FVec F S4000x64 .f32 := broadcastInDim S4000x64 ![] bcast_S_S4000x64 main_cst_0
  let main_v6 : IVec S4000x64 1 := cmpf .olt main_v4 main_v5
  let main_c_1 : IVec S_ 1 := constantI S_ 1 1#1
  let main_v7 : IVec S_ 1 := (fun x v => Host.reduce IntOp.andi x v reducesTo_S4000x64_S_d0_1 h_S_) main_v6 main_c_1
  let main_v8 : IVec S_ 1 := andi main_v3 main_v7
  let main_v9 : FVec F S4000x12288 .f32 := Host.absf main_arg2
  let main_cst_2 : FVec F S_ .f32 := constant S_ .f32 0x7F800000#32
  let main_v10 : FVec F S4000x12288 .f32 := broadcastInDim S4000x12288 ![] bcast_S_S4000x12288 main_cst_2
  let main_v11 : IVec S4000x12288 1 := cmpf .olt main_v9 main_v10
  let main_c_3 : IVec S_ 1 := constantI S_ 1 1#1
  let main_v12 : IVec S_ 1 := (fun x v => Host.reduce IntOp.andi x v reducesTo_S4000x12288_S_d0_1 h_S_) main_v11 main_c_3
  let main_v13 : IVec S_ 1 := andi main_v8 main_v12
  let main_v14 : FVec F S12288 .f32 := Host.absf main_arg3
  let main_cst_4 : FVec F S_ .f32 := constant S_ .f32 0x7F800000#32
  let main_v15 : FVec F S12288 .f32 := broadcastInDim S12288 ![] bcast_S_S12288 main_cst_4
  let main_v16 : IVec S12288 1 := cmpf .olt main_v14 main_v15
  fn_part1 (F := F) main_v13 main_v16
-- ==== Kernel.lean ====
abbrev S4096x4000 : Shape := ⟨2, ![4096, 4000]⟩
abbrev S4000x64 : Shape := ⟨2, ![4000, 64]⟩
abbrev S4000x12288 : Shape := ⟨2, ![4000, 12288]⟩
abbrev S12288 : Shape := ⟨1, ![12288]⟩
abbrev S4000x64x192 : Shape := ⟨3, ![4000, 64, 192]⟩
abbrev S4000x192x64 : Shape := ⟨3, ![4000, 192, 64]⟩
abbrev S192x64 : Shape := ⟨2, ![192, 64]⟩
abbrev S64x192 : Shape := ⟨2, ![64, 192]⟩
abbrev S_ : Shape := ⟨0, ![]⟩
abbrev S4096x4096 : Shape := ⟨2, ![4096, 4096]⟩
abbrev S4096x12288 : Shape := ⟨2, ![4096, 12288]⟩
abbrev S1x12288 : Shape := ⟨2, ![1, 12288]⟩
abbrev S1024x512 : Shape := ⟨2, ![1024, 512]⟩
abbrev S512x1536 : Shape := ⟨2, ![512, 1536]⟩
abbrev S1x1536 : Shape := ⟨2, ![1, 1536]⟩
abbrev S1024x1536 : Shape := ⟨2, ![1024, 1536]⟩
abbrev S4096x64x192 : Shape := ⟨3, ![4096, 64, 192]⟩

abbrev nBuf : Space → Nat
  | .hbm => 24
  | .vmem => 9
  | .smem => 0
  | _ => 0

abbrev bufTy : (tb : Table) → Fin (tcTables nBuf tb) → BufTy
  | .hbm, ⟨0, _⟩ => ⟨S4096x4000, .f32⟩
  | .hbm, ⟨1, _⟩ => ⟨S4000x64, .f32⟩
  | .hbm, ⟨2, _⟩ => ⟨S4000x12288, .f32⟩
  | .hbm, ⟨3, _⟩ => ⟨S12288, .f32⟩
  | .hbm, ⟨4, _⟩ => ⟨S4000x64x192, .f32⟩
  | .hbm, ⟨5, _⟩ => ⟨S4000x12288, .f32⟩
  | .hbm, ⟨6, _⟩ => ⟨S4000x12288, .f32⟩
  | .hbm, ⟨7, _⟩ => ⟨S4000x192x64, .f32⟩
  | .hbm, ⟨8, _⟩ => ⟨S4000x64x192, .f32⟩
  | .hbm, ⟨9, _⟩ => ⟨S4000x12288, .f32⟩
  | .hbm, ⟨10, _⟩ => ⟨S192x64, .f32⟩
  | .hbm, ⟨11, _⟩ => ⟨S64x192, .f32⟩
  | .hbm, ⟨12, _⟩ => ⟨S12288, .f32⟩
  | .hbm, ⟨13, _⟩ => ⟨S4096x4000, .bf16⟩
  | .hbm, ⟨14, _⟩ => ⟨S4000x12288, .bf16⟩
  | .hbm, ⟨15, _⟩ => ⟨S_, .i32⟩
  | .hbm, ⟨16, _⟩ => ⟨S_, .bf16⟩
  | .hbm, ⟨17, _⟩ => ⟨S4096x4096, .bf16⟩
  | .hbm, ⟨18, _⟩ => ⟨S_, .i32⟩
  | .hbm, ⟨19, _⟩ => ⟨S_, .bf16⟩
  | .hbm, ⟨20, _⟩ => ⟨S4096x12288, .bf16⟩
  | .hbm, ⟨21, _⟩ => ⟨S1x12288, .f32⟩
  | .hbm, ⟨22, _⟩ => ⟨S4096x12288, .f32⟩
  | .hbm, ⟨23, _⟩ => ⟨S4096x64x192, .f32⟩
  | .local _ .vmem, ⟨0, _⟩ => ⟨S1024x512, .bf16⟩
  | .local _ .vmem, ⟨1, _⟩ => ⟨S1024x512, .bf16⟩
  | .local _ .vmem, ⟨2, _⟩ => ⟨S512x1536, .bf16⟩
  | .local _ .vmem, ⟨3, _⟩ => ⟨S512x1536, .bf16⟩
  | .local _ .vmem, ⟨4, _⟩ => ⟨S1x1536, .f32⟩
  | .local _ .vmem, ⟨5, _⟩ => ⟨S1x1536, .f32⟩
  | .local _ .vmem, ⟨6, _⟩ => ⟨S1024x1536, .f32⟩
  | .local _ .vmem, ⟨7, _⟩ => ⟨S1024x1536, .f32⟩
  | .local _ .vmem, ⟨8, _⟩ => ⟨S1024x1536, .f32⟩
  | _, _ => ⟨S4096x4000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_c_0 : Ref sig .tc := ⟨.hbm, 18, rfl⟩
abbrev main_call1_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S4000x64_S4000x64x192_0_1 : S4000x64.BroadcastsInDim S4000x64x192 (![0, 1] : Fin 2 → Fin S4000x64x192.rank)
  shapeCasts_S4000x64x192_S4000x12288 : S4000x64x192.ShapeCasts S4000x12288
  shapeCasts_S4000x12288_S4000x192x64 : S4000x12288.ShapeCasts S4000x192x64
  transposes_S4000x192x64_S4000x64x192_0_2_1 : S4000x192x64.Transposes [0, 2, 1] S4000x64x192
  shapeCasts_S12288_S192x64 : S12288.ShapeCasts S192x64
  transposes_S192x64_S64x192_1_0 : S192x64.Transposes [1, 0] S64x192
  shapeCasts_S64x192_S12288 : S64x192.ShapeCasts S12288
  bitsLt_bf16_f32 : FTy.bits .bf16 < FTy.bits .f32
  pads_S4096x4000_S4096x4096_000_0960 : S4096x4000.Pads (![0, 0] : Fin 2 → Nat) ![0, 96] ![0, 0] S4096x4096
  h_S_ : 0 < S_.numel
  pads_S4000x12288_S4096x12288_0960_000 : S4000x12288.Pads (![0, 0] : Fin 2 → Nat) ![96, 0] ![0, 0] S4096x12288
  shapeCasts_S12288_S1x12288 : S12288.ShapeCasts S1x12288
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  shapeCasts_S4096x12288_S4096x64x192 : S4096x12288.ShapeCasts S4096x64x192
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .bf16 = 32 ∨ (Rect.block (s := S4096x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S4096x12288.size a
  hwx0_1 : ∀ i : grid0.Coords, EltTy.bits .bf16 = 32 ∨ (Rect.block (s := S4096x12288) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1536.size a ≤ S1x12288.size a
  hwx0_2 : ∀ i : grid0.Coords, EltTy.bits .f32 = 32 ∨ (Rect.block (s := S1x12288) S1x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1536.size a ≤ S4096x12288.size a
  hwx0_3 : ∀ i : grid0.Coords, EltTy.bits .f32 = 32 ∨ (Rect.block (s := S4096x12288) S1024x1536.size (cc0_transform_3 i) (hinb0_3 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_v11) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1536.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x4000 : Shape := ⟨2, ![4096, 4000]⟩
abbrev S4000x64 : Shape := ⟨2, ![4000, 64]⟩
abbrev S4000x12288 : Shape := ⟨2, ![4000, 12288]⟩
abbrev S12288 : Shape := ⟨1, ![12288]⟩
abbrev S4000x64x192 : Shape := ⟨3, ![4000, 64, 192]⟩
abbrev S4096x12288 : Shape := ⟨2, ![4096, 12288]⟩
abbrev S1x12288 : Shape := ⟨2, ![1, 12288]⟩
abbrev S4096x192x64 : Shape := ⟨3, ![4096, 192, 64]⟩
abbrev S4096x64x192 : Shape := ⟨3, ![4096, 64, 192]⟩

abbrev nBuf : Space → Nat
  | .hbm => 13
  | .vmem => 0
  | .smem => 0
  | _ => 0

abbrev bufTy : (tb : Table) → Fin (tcTables nBuf tb) → BufTy
  | .hbm, ⟨0, _⟩ => ⟨S4096x4000, .f32⟩
  | .hbm, ⟨1, _⟩ => ⟨S4000x64, .f32⟩
  | .hbm, ⟨2, _⟩ => ⟨S4000x12288, .f32⟩
  | .hbm, ⟨3, _⟩ => ⟨S12288, .f32⟩
  | .hbm, ⟨4, _⟩ => ⟨S4000x64x192, .f32⟩
  | .hbm, ⟨5, _⟩ => ⟨S4000x12288, .f32⟩
  | .hbm, ⟨6, _⟩ => ⟨S4000x12288, .f32⟩
  | .hbm, ⟨7, _⟩ => ⟨S4096x12288, .f32⟩
  | .hbm, ⟨8, _⟩ => ⟨S1x12288, .f32⟩
  | .hbm, ⟨9, _⟩ => ⟨S4096x12288, .f32⟩
  | .hbm, ⟨10, _⟩ => ⟨S4096x12288, .f32⟩
  | .hbm, ⟨11, _⟩ => ⟨S4096x192x64, .f32⟩
  | .hbm, ⟨12, _⟩ => ⟨S4096x64x192, .f32⟩
  | _, _ => ⟨S4096x4000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S4000x64_S4000x64x192_0_1 : S4000x64.BroadcastsInDim S4000x64x192 (![0, 1] : Fin 2 → Fin S4000x64x192.rank)
  shapeCasts_S4000x64x192_S4000x12288 : S4000x64x192.ShapeCasts S4000x12288
  bcast_S12288_S1x12288_1 : S12288.BroadcastsInDim S1x12288 (![1] : Fin 1 → Fin S1x12288.rank)
  bcast_S1x12288_S4096x12288_0_1 : S1x12288.BroadcastsInDim S4096x12288 (![0, 1] : Fin 2 → Fin S4096x12288.rank)
  shapeCasts_S4096x12288_S4096x192x64 : S4096x12288.ShapeCasts S4096x192x64
  transposes_S4096x192x64_S4096x64x192_0_2_1 : S4096x192x64.Transposes [0, 2, 1] S4096x64x192
  dot_S4096x4000_S4000x12288_S4096x12288_1_0_0_1_n_n_wf : DotDims.WF S4096x4000 S4000x12288 S4096x12288 [1] [0] [0] [1] [] []

variable [Facts₀]

def dot_S4096x4000_S4000x12288_S4096x12288_1_0_0_1_n_n : DotDims S4096x4000 S4000x12288 S4096x12288 where
  lhsContracting := [1]
  rhsContracting := [0]
  lhsNonContracting := [0]
  rhsNonContracting := [1]
  lhsBatch := []
  rhsBatch := []
  wf := dot_S4096x4000_S4000x12288_S4096x12288_1_0_0_1_n_n_wf

class Facts : Prop extends Facts₀ where

variable [Facts]
-- ==== Proof.LibSumBlocks.lean ====
/-
  Regrouping a finite sum into consecutive blocks, in any additive commutative monoid (used at the extended
  reals, where addition is commutative and associative although it is not cancellative): a sum over
  `a * b` consecutive positions is the sum over `a` blocks of the sums over the `b` positions of each
  block, and a sum over four blocks is the left-to-right accumulation `(((0 + s₀) + s₁) + s₂) + s₃`.
  Nothing here needs the summands to be finite.
-/
import Mathlib.Algebra.BigOperators.Fin
import Mathlib.Logic.Equiv.Fin.Basic

namespace Cert.SumBlocks

open scoped BigOperators

/-- A sum over the positions `0 … a*b-1` is the sum over blocks `k < a` of the sums over the offsets
    `j < b` inside block `k`, position `k * b + j`. -/
theorem sum_blocks {M : Type*} [AddCommMonoid M] (a b : ℕ) (f : ℕ → M) :
    ∑ i : Fin (a * b), f i.val = ∑ k : Fin a, ∑ j : Fin b, f (k.val * b + j.val) := by
  rw [← Fintype.sum_prod_type' (f := fun (k : Fin a) (j : Fin b) => f (k.val * b + j.val))]
  refine (Fintype.sum_equiv finProdFinEquiv _ _ ?_).symm
  rintro ⟨k, j⟩
  show f (k.val * b + j.val) = f (finProdFinEquiv (k, j)).val
  congr 1
  simp only [finProdFinEquiv_apply_val]
  rw [Nat.mul_comm, Nat.add_comm]

/-- Four blocks accumulated from zero, left to right, are their sum. -/
theorem acc_four {M : Type*} [AddCommMonoid M] (s : Fin 4 → M) :
    (((0 + s 0) + s 1) + s 2) + s 3 = ∑ k : Fin 4, s k := by
  rw [Fin.sum_univ_four, zero_add]

end Cert.SumBlocks
-- ==== Proof.Spec.lean ====
/-
  The function both programs compute, index by index over the extended reals: a masked linear layer whose
  output columns are regrouped. With x : [4096, 4000], mask : [4000, 64], W : [4000, 12288], b : [12288],
  the entry (r, w, a) of the result [4096, 64, 192] is

      (sum over k < 4000 of x(r, k) * (W(k, a * 64 + w) * mask(k, (a * 64 + w) / 192))) + b(a * 64 + w).

  Also here: the one algebraic law the two programs differ by (a contraction over 4096 zero-padded positions,
  accumulated from zero in 8 blocks of 512, is the contraction over the 4000 real positions: addition on the
  extended reals is commutative and associative and zero times anything is zero, so nothing needs to be
  finite), and the row-major regrouping of a [4096, 12288] array as [4096, 64, 192] read at an index.
-/
import Idealize.ShloMosaic.PureOps.Ideal
import Idealize.ShloMosaic.PureOps.Ideal.Laws
import Idealize.ShloMosaic.Lib.ValueIdx
import Idealize.ShloMosaic.Lib.Pipeline.Value
import proofs.«150940_j3874060501841_2_alg».proof.Proof.LibSumBlocks

noncomputable section

namespace Cert.MaskedLinear

open Idealize.ShloMosaic Idealize.ShloMosaic.ValueIdx
open scoped BigOperators

/-- The source column a * 64 + w of the result's entry (w, a). -/
def col (w : Fin 64) (a : Fin 192) : Fin 12288 := ⟨a.val * 64 + w.val, by have := w.isLt; have := a.isLt; omega⟩

/-- The mask group (a * 64 + w) / 192 of that column. -/
def grp (w : Fin 64) (a : Fin 192) : Fin 64 := ⟨(a.val * 64 + w.val) / 192, by have := w.isLt; have := a.isLt; omega⟩

/-- The masked linear layer with regrouped columns, index by index. -/
def G (x : (⟨2, ![4096, 4000]⟩ : Shape).Idx → EReal) (mask : (⟨2, ![4000, 64]⟩ : Shape).Idx → EReal)
    (W : (⟨2, ![4000, 12288]⟩ : Shape).Idx → EReal) (b : (⟨1, ![12288]⟩ : Shape).Idx → EReal) :
    (⟨3, ![4096, 64, 192]⟩ : Shape).Idx → EReal :=
  fun i => (∑ k : Fin 4000, x (ix2 (i 0) k) * (W (ix2 k (col (i 1) (i 2))) * mask (ix2 k (grp (i 1) (i 2)))))
    + b (ix1 (col (i 1) (i 2)))

/-- A contraction over 4096 positions whose left factor vanishes from position 4000 on, accumulated from zero
    as 8 consecutive blocks of 512, is the contraction over the first 4000 positions. -/
theorem blocks_padded (f g : ℕ → EReal) (hf : ∀ k, 4000 ≤ k → f k = 0) :
    (0 : EReal) + ∑ s ∈ Finset.range 8, ∑ kk : Fin 512, f (s * 512 + kk.val) * g (s * 512 + kk.val)
      = ∑ k : Fin 4000, f k.val * g k.val := by
  -- the eight blocks of 512 are the 4096 consecutive positions
  have hblocks := Cert.SumBlocks.sum_blocks 8 512 (fun n => f n * g n)
  rw [zero_add, ← Fin.sum_univ_eq_sum_range
    (fun s => ∑ kk : Fin 512, f (s * 512 + kk.val) * g (s * 512 + kk.val)) 8]
  refine hblocks.symm.trans ?_
  -- 4096 = 4000 + 96, and the last 96 terms are zero times something
  rw [Fin.sum_univ_eq_sum_range (fun n => f n * g n) (8 * 512),
    Fin.sum_univ_eq_sum_range (fun n => f n * g n) 4000,
    show 8 * 512 = 4000 + 96 from rfl, Finset.sum_range_add]
  rw [Finset.sum_eq_zero (s := Finset.range 96), add_zero]
  intro k _
  rw [hf (4000 + k) (Nat.le_add_right _ _), zero_mul]

/-- The row-major regrouping [4096, 12288] -> [4096, 64, 192] read at (r, w, a) is the array at (r, w * 192 + a). -/
theorem regroup_apply {α : Type} (y : (⟨2, ![4096, 12288]⟩ : Shape).Idx → α)
    (h : (⟨2, ![4096, 12288]⟩ : Shape).ShapeCasts ⟨3, ![4096, 64, 192]⟩) (r : Fin 4096) (w : Fin 64) (a : Fin 192) :
    shapeCast ⟨3, ![4096, 64, 192]⟩ y h (ix3 r w a)
      = y (ix2 r ⟨w.val * 192 + a.val, by have := w.isLt; have := a.isLt; omega⟩) := by
  -- both indices have the same row-major position r * 12288 + w * 192 + a
  refine shapeCast_apply y h (ix3 r w a) _ ?_
  rw [Shape.rowMajor_val_two, Shape.rowMajor_val_three]
  show r.val * 12288 + (w.val * 192 + a.val) = (r.val * 64 + w.val) * 192 + a.val
  omega

end Cert.MaskedLinear

end
-- ==== Proof.RefSpec.lean ====
/-
  The reference program's result, read index by index at the ideal instance, is the masked linear layer
  with regrouped columns: its last two operations regroup the columns a * 64 + w of the [4096, 12288] product
  as (a, w) and exchange the two axes, its first two spread each mask entry over the 192 columns of its group.
-/
import proofs.«150940_j3874060501841_2_alg».proof.Proof.Gen.ReferenceIdeal.Read
import proofs.«150940_j3874060501841_2_alg».proof.Proof.Spec

noncomputable section

namespace Cert.ReferenceIdeal.RefSpec

open Idealize.ShloMosaic Idealize.ShloMosaic.ValueIdx
open Cert.ReferenceIdeal Cert.ReferenceIdeal.Read
open scoped BigOperators

/-- The reference's result is the masked linear layer with regrouped columns. -/
theorem ref_eq (x0 : S4096x4000.Idx → EReal) (x1 : S4000x64.Idx → EReal) (x2 : S4000x12288.Idx → EReal)
    (x3 : S12288.Idx → EReal) :
    val_main_v8 (F := Ideal) x0 x1 x2 x3 = Cert.MaskedLinear.G x0 x1 x2 x3 := by
  funext i
  obtain ⟨r, w, a, rfl⟩ : ∃ (r : Fin 4096) (w : Fin 64) (a : Fin 192), i = ix3 r w a :=
    ⟨i 0, i 1, i 2, eq_ix3 i⟩
  have hr := r.isLt
  have hw := w.isLt
  have ha := a.isLt
  -- exchanging the last two axes and regrouping: entry (r, w, a) is read from row r, column a * 64 + w
  have ej : idx_main_v7 (idx_main_v8 (ix3 r w a)) = ix2 r (Cert.MaskedLinear.col w a) :=
    funext fun d => Fin.ext (by
      match d with
      | ⟨0, _⟩ => show ((r.val * 192 + a.val) * 64 + w.val) / 12288 = r.val; omega
      | ⟨1, _⟩ => show ((r.val * 192 + a.val) * 64 + w.val) % 12288 = a.val * 64 + w.val; omega)
  -- the contraction reads x at (r, k) and the masked weight at (k, column)
  have el : ∀ k : Fin 4000, lidx_main_v3 (ix2 r (Cert.MaskedLinear.col w a)) k = ix2 r k := fun k =>
    funext fun d => Fin.ext (by
      match d with
      | ⟨0, _⟩ => rfl
      | ⟨1, _⟩ => rfl)
  have er : ∀ k : Fin 4000, ridx_main_v3 (ix2 r (Cert.MaskedLinear.col w a)) k
      = ix2 k (Cert.MaskedLinear.col w a) := fun k =>
    funext fun d => Fin.ext (by
      match d with
      | ⟨0, _⟩ => rfl
      | ⟨1, _⟩ => rfl)
  -- the bias is read at the column
  have eb : idx_main_v4 (idx_main_v5 (ix2 r (Cert.MaskedLinear.col w a))) = ix1 (Cert.MaskedLinear.col w a) :=
    funext fun d => Fin.ext (by
      match d with
      | ⟨0, _⟩ => rfl)
  -- the mask entry spread over the 192 columns of its group: column c of row k reads mask (k, c / 192)
  have em : ∀ k : Fin 4000, idx_main_v0 (idx_main_v1 (ix2 k (Cert.MaskedLinear.col w a)))
      = ix2 k (Cert.MaskedLinear.grp w a) := fun k =>
    funext fun d => Fin.ext (by
      have hk := k.isLt
      match d with
      | ⟨0, _⟩ => show (k.val * 12288 + (a.val * 64 + w.val)) / 12288 = k.val; omega
      | ⟨1, _⟩ =>
        show (k.val * 12288 + (a.val * 64 + w.val)) / 192 % 64 = (a.val * 64 + w.val) / 192; omega)
  rw [val_main_v8_apply, val_main_v7_apply, ej, val_main_v6_apply, val_main_v3_apply, val_main_v5_apply,
    val_main_v4_apply, eb, Ideal.addf_def]
  refine congrArg₂ (fun p q : EReal => p + q) (Finset.sum_congr rfl fun k _ => ?_) rfl
  rw [el, er, val_main_v2_apply, val_main_v1_apply, val_main_v0_apply, em, Ideal.mulf_def]

end Cert.ReferenceIdeal.RefSpec

end
-- ==== Proof.Body.lean ====
/-
  What the kernel body leaves behind at one grid point, as values. The body keeps a [1024, 1536] accumulator
  in a scratch buffer: at the first step of a contraction (case A) it stores zero there and then adds the
  product of the point's [1024, 512] and [512, 1536] blocks; at a middle step (case B) it adds the product
  to what the step before left; at the last step (case C) it does the same and then stores the accumulator
  plus the bias row, broadcast over the rows, into the output block.
  At the ideal instance each stored value is read at an index: the matrix product as a sum over the 512
  contracted positions, the broadcast bias at row 0 of its one-row block.
-/
import proofs.«150940_j3874060501841_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

namespace Cert.KernelIdeal.Body

open Idealize.ShloMosaic Idealize.ShloMosaic.TcCoe Idealize.SL.Sem
open Idealize.ShloMosaic.ValueIdx
open Cert.KernelIdeal Cert.KernelIdeal.Gen
open scoped BigOperators

section Pieces

variable {F : FTy → Type} [FloatOps F]

/-- The zero offsets of a whole-block access, as the constant function. -/
theorem hz : (![0, 0] : Fin 2 → Nat) = fun _ => 0 := funext fun a => by fin_cases a <;> rfl

/-- First step: the scratch ends at zero plus the product of the point's blocks. -/
theorem scratch_A (c : Dev nD) (i : grid0.Coords) (arg3 : Memref sig .tc .vmem S1024x512 .bf16) (harg3 : arg3.IsWhole) (arg4 : Memref sig .tc .vmem S512x1536 .bf16) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : cond0_0 i) (hc1 : ¬cond0_1 i)
    (x0 : Vec F S1024x512 .bf16) (x1 : Vec F S512x1536 .bf16) (x2 : Vec F S1x1536 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1536) hz, View.readCov_unit_zero (S := S1024x1536) _ hz]
  simp only [View.readAt_eq_ld, harg3.read_unread, harg4.read_unread,
    View.ld_unit_zero (S := S1024x512) hz, View.ld_unit_zero (S := S512x1536) hz]

/-- Middle step: the scratch ends at what it held plus the product of the point's blocks. -/
theorem scratch_B (c : Dev nD) (i : grid0.Coords) (arg3 : Memref sig .tc .vmem S1024x512 .bf16) (harg3 : arg3.IsWhole) (arg4 : Memref sig .tc .vmem S512x1536 .bf16) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : ¬cond0_1 i)
    (x0 : Vec F S1024x512 .bf16) (x1 : Vec F S512x1536 .bf16) (x2 : Vec F S1x1536 .f32) (xs0 : Vec F S1024x1536 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz]
  simp only [View.readAt_eq_ld, harg3.read_unread, harg4.read_unread, harg7.read_unread,
    View.ld_unit_zero (S := S1024x1536) hz, View.ld_unit_zero (S := S1024x512) hz, View.ld_unit_zero (S := S512x1536) hz]

/-- Last step: the scratch ends at what it held plus the product of the point's blocks, -/
theorem scratch_C (c : Dev nD) (i : grid0.Coords) (arg3 : Memref sig .tc .vmem S1024x512 .bf16) (harg3 : arg3.IsWhole) (arg4 : Memref sig .tc .vmem S512x1536 .bf16) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S512x1536 .bf16) (x2 : Vec F S1x1536 .f32) (xs0 : Vec F S1024x1536 .f32) :
    sout0_C_0 c i arg3 harg3 arg4 harg4 arg5 harg5 arg6 harg6 arg7 harg7 hc0 hc1 x0 x1 x2 xs0 = k0_pay2 xs0 x0 x1 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S1024x1536) hz, View.ld_unit_zero (S := S1024x512) hz, View.ld_unit_zero (S := S512x1536) hz]

/-- and the output block at that accumulator plus the bias row. -/
theorem out_C (c : Dev nD) (i : grid0.Coords) (arg3 : Memref sig .tc .vmem S1024x512 .bf16) (harg3 : arg3.IsWhole) (arg4 : Memref sig .tc .vmem S512x1536 .bf16) (harg4 : arg4.IsWhole) (arg5 : Memref sig .tc .vmem S1x1536 .f32) (harg5 : arg5.IsWhole) (arg6 : Memref sig .tc .vmem S1024x1536 .f32) (harg6 : arg6.IsWhole) (arg7 : Memref sig .tc .vmem S1024x1536 .f32) (harg7 : arg7.IsWhole) (hc0 : ¬cond0_0 i) (hc1 : cond0_1 i)
    (x0 : Vec F S1024x512 .bf16) (x1 : Vec F S512x1536 .bf16) (x2 : Vec F S1x1536 .f32) (xs0 : Vec F S1024x1536 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1536) _ hz]
  simp only [View.readAt_eq_ld, harg3.read_unread, harg4.read_unread, harg5.read_unread, harg7.read_unread,
    View.ld_unit_zero (S := S1024x1536) hz, View.ld_unit_zero (S := S1024x512) hz, View.ld_unit_zero (S := S512x1536) hz,
    View.ld_unit_zero (S := S1x1536) hz]

end Pieces

/-! ## The stored values at an index, on the extended reals -/

/-- The reset value is zero everywhere. -/
theorem pay1_apply (j : S1024x1536.Idx) : (k0_pay1 (F := Ideal) : S1024x1536.Idx → EReal) j = 0 := by
  unfold k0_pay1
  rw [shapeCast_self]
  exact Ideal.ofBits_zero_f32

/-- The left operand's index of the product at output index `i` and contraction index `k`: row `i 0`, -/
theorem lhs_mm_0 (i : S1024x1536.Idx) (k : dot_S1024x512_S512x1536_S1024x1536_1_0_0_1_n_n.contr.Idx) :
    (dot_S1024x512_S512x1536_S1024x1536_1_0_0_1_n_n.lhsIdx i k 0).val = (i 0).val := by
  unfold DotDims.lhsIdx
  rw [dif_neg (show ¬(0 : Fin S1024x512.rank) ∈ dot_S1024x512_S512x1536_S1024x1536_1_0_0_1_n_n.lhsBatch by decide), dif_pos (show (0 : Fin S1024x512.rank) ∈ dot_S1024x512_S512x1536_S1024x1536_1_0_0_1_n_n.lhsNonContracting by decide)]
  rfl
/-- column the contracted position; -/
theorem lhs_mm_1 (i : S1024x1536.Idx) (k : dot_S1024x512_S512x1536_S1024x1536_1_0_0_1_n_n.contr.Idx) :
    (dot_S1024x512_S512x1536_S1024x1536_1_0_0_1_n_n.lhsIdx i k 1).val = (k ⟨0, by decide⟩).val :=
  dot_S1024x512_S512x1536_S1024x1536_1_0_0_1_n_n.lhsIdx_val_of_single rfl i k
/-- the right operand's: row the contracted position, -/
theorem rhs_mm_0 (i : S1024x1536.Idx) (k : dot_S1024x512_S512x1536_S1024x1536_1_0_0_1_n_n.contr.Idx) :
    (dot_S1024x512_S512x1536_S1024x1536_1_0_0_1_n_n.rhsIdx i k 0).val = (k ⟨0, by decide⟩).val :=
  dot_S1024x512_S512x1536_S1024x1536_1_0_0_1_n_n.rhsIdx_val_of_single rfl i k
/-- column `i 1`. -/
theorem rhs_mm_1 (i : S1024x1536.Idx) (k : dot_S1024x512_S512x1536_S1024x1536_1_0_0_1_n_n.contr.Idx) :
    (dot_S1024x512_S512x1536_S1024x1536_1_0_0_1_n_n.rhsIdx i k 1).val = (i 1).val := by
  unfold DotDims.rhsIdx
  rw [dif_neg (show ¬(1 : Fin S512x1536.rank) ∈ dot_S1024x512_S512x1536_S1024x1536_1_0_0_1_n_n.rhsBatch by decide), dif_pos (show (1 : Fin S512x1536.rank) ∈ dot_S1024x512_S512x1536_S1024x1536_1_0_0_1_n_n.rhsNonContracting by decide)]
  rfl

/-- One accumulation step at (r, q): the accumulator there plus the sum over the 512 contracted positions. -/
theorem pay2_apply (acc : S1024x1536.Idx → EReal) (lhs : S1024x512.Idx → EReal) (rhs : S512x1536.Idx → EReal)
    (r : Fin 1024) (q : Fin 1536) :
    (k0_pay2 (F := Ideal) acc lhs rhs : S1024x1536.Idx → EReal) (ix2 r q)
      = acc (ix2 r q) + ∑ kk : Fin 512, lhs (ix2 r kk) * rhs (ix2 kk q) := by
  unfold k0_pay2
  rw [shapeCast_self, shapeCast_self, shapeCast_self, addf_apply]
  congr 1
  simp only [matmul]
  rw [Ideal.matmul_constant_zero_apply, ← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 r q) ((contrEquiv1 dot_S1024x512_S512x1536_S1024x1536_1_0_0_1_n_n 512 rfl rfl).symm k) = ix2 r k := funext fun a => Fin.ext (by
    match a with
    | ⟨0, _⟩ => exact lhs_mm_0 _ _
    | ⟨1, _⟩ => exact (lhs_mm_1 _ _).trans hk)
  have er : dot_S1024x512_S512x1536_S1024x1536_1_0_0_1_n_n.rhsIdx (ix2 r q) ((contrEquiv1 dot_S1024x512_S512x1536_S1024x1536_1_0_0_1_n_n 512 rfl rfl).symm k) = ix2 k q := funext fun a => Fin.ext (by
    match a with
    | ⟨0, _⟩ => exact (rhs_mm_0 _ _).trans hk
    | ⟨1, _⟩ => exact rhs_mm_1 _ _)
  rw [el, er]

/-- The epilogue at (r, q): the accumulator there plus the bias row's entry q. -/
theorem pay3_apply (acc : S1024x1536.Idx → EReal) (bias : S1x1536.Idx → EReal) (r : Fin 1024) (q : Fin 1536) :
    (k0_pay3 (F := Ideal) acc bias : S1024x1536.Idx → EReal) (ix2 r q)
      = acc (ix2 r q) + bias (ix2 (0 : Fin 1) q) := by
  unfold k0_pay3
  rw [shapeCast_self, addf_apply]
  congr 1
  exact broadcastTo_apply bias _ (ix2 r q) (ix2 (0 : Fin 1) q) (fun a => match a with
    | ⟨0, _⟩ => by show (0 : Nat) = if (1 : Nat) = 1 then 0 else r.val; rw [if_pos rfl]
    | ⟨1, _⟩ => by show q.val = if (1536 : Nat) = 1 then 0 else q.val; rw [if_neg (by decide)])

end Cert.KernelIdeal.Body

end
-- ==== Proof.HostIn.lean ====
/-
  The arrays the kernel region is launched on, as functions of the program's arguments, at the ideal
  instance. Before the region the program prepares three arrays: the left operand x with its columns
  padded by zeros from 4000 to 4096; the right operand, whose column w * 192 + a is column a * 64 + w
  of W times the mask entry of that column's group (a * 64 + w) / 192, with its rows padded by zeros
  from 4000 to 4096; and the bias row, whose column w * 192 + a is entry a * 64 + w of b.
  A change of float format is the identity on the extended reals, and the integer zero converts to zero.
-/
import proofs.«150940_j3874060501841_2_alg».proof.Proof.Gen.KernelIdeal.Frame.Runs
import Idealize.ShloMosaic.Lib.Pipeline.Value
import Idealize.ShloMosaic.Lib.ValueIdx
import Idealize.ShloMosaic.Lib.ValueLayout
import Idealize.ShloMosaic.Lib.KernelVsHost
import Idealize.ShloMosaic.Lib.StableHlo.Run
import Idealize.ShloMosaic.PureOps.Ideal.Laws

noncomputable section

namespace Cert.KernelIdeal.HostIn

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (c : Dev nD)

/-- The three arrays the region is launched on, and the four arguments, as arrays of extended reals. -/
abbrev lhsArr : S4096x4096.Idx → EReal := V m c main_v11
abbrev rhsArr : S4096x12288.Idx → EReal := V m c main_v12
abbrev biasArr : S1x12288.Idx → EReal := V m c main_v13
abbrev argX : S4096x4000.Idx → EReal := m ((c : Thread nD τ).loc main_arg0)
abbrev argMask : S4000x64.Idx → EReal := m ((c : Thread nD τ).loc main_arg1)
abbrev argW : S4000x12288.Idx → EReal := m ((c : Thread nD τ).loc main_arg2)
abbrev argB : S12288.Idx → EReal := m ((c : Thread nD τ).loc main_arg3)

/-- The source column of the permuted column Q = w * 192 + a, namely a * 64 + w, is a column. -/
theorem srcCol_lt (Q : Fin 12288) : (Q.val % 192) * 64 + Q.val / 192 < 12288 := by
  have := Q.isLt; omega

/-- The mask group of the source column is a group. -/
theorem srcGroup_lt (Q : Fin 12288) : ((Q.val % 192) * 64 + Q.val / 192) / 192 < 64 := by
  have := Q.isLt; omega

/-- The integer zero converts to the extended real zero. -/
theorem sitofp_zero_apply (i : S_.Idx) :
    (sitofp (F := Ideal) .bf16 (constantI S_ 32 0#32) : S_.Idx → EReal) i = 0 := by
  show (((0#32 : BitVec 32).toInt : ℝ) : EReal) = 0
  simp

/-- The left operand as the composed term of the operations that prepare it: x converted, then padded
    by the converted integer zero. -/
theorem lhs_term :
    (V m c main_v11 : S4096x4096.Idx → EReal)
      = pad S4096x4096 ![0, 0] ![0, 96] ![0, 0]
          (truncf (F := Ideal) .bf16 (argX m c) bitsLt_bf16_f32 : S4096x4000.Idx → EReal)
          (sitofp (F := Ideal) .bf16 (constantI S_ 32 0#32) : S_.Idx → EReal)
          pads_S4096x4000_S4096x4096_000_0960 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The left operand the region finds: x, zero in the padded columns. -/
theorem lhs_apply (R : Fin 4096) (k : Fin 4096) :
    lhsArr m c (ix2 R k) = if h : k.val < 4000 then argX m c (ix2 R ⟨k.val, h⟩) else 0 := by
  refine (congrFun (lhs_term m c) (ix2 R k)).trans ?_
  by_cases h : k.val < 4000
  · rw [dif_pos h]
    -- inside the operand: the padded array reads x at the same coordinates, and the conversion is the identity
    exact pad_apply_of_inside _ _ _ _ _ pads_S4096x4000_S4096x4096_000_0960 h_S_ (ix2 R k) (ix2 R ⟨k.val, h⟩)
      (fun a => match a with
        | ⟨0, _⟩ => by show R.val = 0 + R.val * (0 + 1); omega
        | ⟨1, _⟩ => by show k.val = 0 + k.val * (0 + 1); omega)
  · rw [dif_neg h]
    -- a padded column: the padding value, the converted integer zero
    refine (pad_apply_of_not_inside _ _ _ _ _ pads_S4096x4000_S4096x4096_000_0960 h_S_ (ix2 R k) (1 : Fin 2)
      (fun hin => h (by
        have h3 : (k.val - 0) / (0 + 1) < 4000 := hin.2.2
        omega))).trans ?_
    exact sitofp_zero_apply _

/-- The right operand as the composed term of the operations that prepare it. -/
theorem rhs_term :
    (V m c main_v12 : S4096x12288.Idx → EReal)
      = pad S4096x12288 ![0, 0] ![96, 0] ![0, 0]
          (truncf (F := Ideal) (φ := .f32) .bf16
            (shapeCast S4000x12288
              (transpose S4000x64x192 [0, 2, 1]
                (shapeCast S4000x192x64
                  (mulf (F := Ideal) (φ := .f32) (argW m c)
                    (shapeCast S4000x12288
                      (broadcastInDim S4000x64x192 ![0, 1] bcast_S4000x64_S4000x64x192_0_1 (argMask m c))
                      shapeCasts_S4000x64x192_S4000x12288))
                  shapeCasts_S4000x12288_S4000x192x64)
                transposes_S4000x192x64_S4000x64x192_0_2_1)
              shapeCasts_S4000x64x192_S4000x12288)
            bitsLt_bf16_f32 : S4000x12288.Idx → EReal)
          (sitofp (F := Ideal) .bf16 (constantI S_ 32 0#32) : S_.Idx → EReal)
          pads_S4000x12288_S4096x12288_0960_000 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The right operand the region finds: the masked weights with permuted columns, zero in the padded rows. -/
theorem rhs_apply (k : Fin 4096) (Q : Fin 12288) :
    rhsArr m c (ix2 k Q)
      = if h : k.val < 4000 then
          argW m c (ix2 ⟨k.val, h⟩ ⟨(Q.val % 192) * 64 + Q.val / 192, srcCol_lt Q⟩)
            * argMask m c (ix2 ⟨k.val, h⟩ ⟨((Q.val % 192) * 64 + Q.val / 192) / 192, srcGroup_lt Q⟩)
        else 0 := by
  have hQ := Q.isLt
  refine (congrFun (rhs_term m c) (ix2 k Q)).trans ?_
  by_cases h : k.val < 4000
  · rw [dif_pos h]
    -- inside the operand: the padded array reads the converted array at the same coordinates
    refine (pad_apply_of_inside _ _ _ _ _ pads_S4000x12288_S4096x12288_0960_000 h_S_ (ix2 k Q)
      (ix2 (⟨k.val, h⟩ : Fin 4000) Q)
      (fun a => match a with
        | ⟨0, _⟩ => by show k.val = 0 + k.val * (0 + 1); omega
        | ⟨1, _⟩ => by show Q.val = 0 + Q.val * (0 + 1); omega)).trans ?_
    -- the conversion is the identity
    refine (truncf_apply _ bitsLt_bf16_f32 _).trans ?_
    -- column Q = w * 192 + a of row k is entry (k, w, a) of the [4000, 64, 192] array
    refine (shapeCast_apply _ shapeCasts_S4000x64x192_S4000x12288 (ix2 (⟨k.val, h⟩ : Fin 4000) Q)
      (ix3 (⟨k.val, h⟩ : Fin 4000) (⟨Q.val / 192, by omega⟩ : Fin 64) (⟨Q.val % 192, by omega⟩ : Fin 192)) (by
      rewrite [Shape.rowMajor_val_three, Shape.rowMajor_val_two]
      show (k.val * 64 + Q.val / 192) * 192 + Q.val % 192 = k.val * 12288 + Q.val
      omega)).trans ?_
    -- which the transpose reads at (k, a, w) of the [4000, 192, 64] array
    refine (transpose_apply [0, 2, 1] _ transposes_S4000x192x64_S4000x64x192_0_2_1 _
      (ix3 (⟨k.val, h⟩ : Fin 4000) (⟨Q.val % 192, by omega⟩ : Fin 192) (⟨Q.val / 192, by omega⟩ : Fin 64))
      (fun b => match b with
        | ⟨0, _⟩ => rfl
        | ⟨1, _⟩ => rfl
        | ⟨2, _⟩ => rfl)).trans ?_
    -- column a * 64 + w of row k of the masked weights
    refine (shapeCast_apply _ shapeCasts_S4000x12288_S4000x192x64 _
      (ix2 (⟨k.val, h⟩ : Fin 4000) (⟨(Q.val % 192) * 64 + Q.val / 192, srcCol_lt Q⟩ : Fin 12288)) (by
      rewrite [Shape.rowMajor_val_two, Shape.rowMajor_val_three]
      show k.val * 12288 + ((Q.val % 192) * 64 + Q.val / 192) = (k.val * 192 + Q.val % 192) * 64 + Q.val / 192
      omega)).trans ?_
    -- the product of the weight and the repeated mask at that column
    refine (mulf_apply _ _ _).trans ?_
    refine congrArg (fun z => argW m c (ix2 ⟨k.val, h⟩ ⟨(Q.val % 192) * 64 + Q.val / 192, srcCol_lt Q⟩) * z) ?_
    -- the repeated mask at column n is entry (k, n / 192, n % 192) of the [4000, 64, 192] array
    refine (shapeCast_apply _ shapeCasts_S4000x64x192_S4000x12288 _
      (ix3 (⟨k.val, h⟩ : Fin 4000)
        (⟨((Q.val % 192) * 64 + Q.val / 192) / 192, srcGroup_lt Q⟩ : Fin 64)
        (⟨((Q.val % 192) * 64 + Q.val / 192) % 192, Nat.mod_lt _ (by decide)⟩ : Fin 192)) (by
      rewrite [Shape.rowMajor_val_three, Shape.rowMajor_val_two]
      show (k.val * 64 + ((Q.val % 192) * 64 + Q.val / 192) / 192) * 192 + ((Q.val % 192) * 64 + Q.val / 192) % 192
        = k.val * 12288 + ((Q.val % 192) * 64 + Q.val / 192)
      omega)).trans ?_
    -- which the broadcast reads at the mask's entry (k, n / 192)
    exact broadcastInDim_apply _ bcast_S4000x64_S4000x64x192_0_1 _ _
      (ix2 (⟨k.val, h⟩ : Fin 4000) (⟨((Q.val % 192) * 64 + Q.val / 192) / 192, srcGroup_lt Q⟩ : Fin 64))
      (fun a => match a with
        | ⟨0, _⟩ => by
          show k.val = if (4000 : Nat) = 1 then 0 else k.val
          rw [if_neg (by decide)]
        | ⟨1, _⟩ => by
          show ((Q.val % 192) * 64 + Q.val / 192) / 192
            = if (64 : Nat) = 1 then 0 else ((Q.val % 192) * 64 + Q.val / 192) / 192
          rw [if_neg (by decide)])
  · rw [dif_neg h]
    -- a padded row: the padding value, the converted integer zero
    refine (pad_apply_of_not_inside _ _ _ _ _ pads_S4000x12288_S4096x12288_0960_000 h_S_ (ix2 k Q) (0 : Fin 2)
      (fun hin => h (by
        have h3 : (k.val - 0) / (0 + 1) < 4000 := hin.2.2
        omega))).trans ?_
    exact sitofp_zero_apply _

/-- The bias row as the composed term of the operations that prepare it: b reshaped to [192, 64],
    transposed, flattened, and given a leading unit axis. -/
theorem bias_term :
    (V m c main_v13 : S1x12288.Idx → EReal)
      = shapeCast S1x12288 (shapeCast S12288 (transpose S64x192 [1, 0] (shapeCast S192x64 (argB m c) shapeCasts_S12288_S192x64) transposes_S192x64_S64x192_1_0) shapeCasts_S64x192_S12288) shapeCasts_S12288_S1x12288 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The bias row the region finds: b with permuted entries. -/
theorem bias_apply (z : Fin 1) (Q : Fin 12288) :
    biasArr m c (ix2 z Q) = argB m c (ix1 ⟨(Q.val % 192) * 64 + Q.val / 192, srcCol_lt Q⟩) := by
  have hQ := Q.isLt
  have hz : z.val = 0 := by have := z.isLt; omega
  refine (congrFun (bias_term m c) (ix2 z Q)).trans ?_
  -- the leading unit axis: position Q of the flat row
  refine (shapeCast_apply _ shapeCasts_S12288_S1x12288 (ix2 z Q) (ix1 Q) (by
    rewrite [Shape.rowMajor_val_one, Shape.rowMajor_val_two]
    show Q.val = z.val * 12288 + Q.val
    omega)).trans ?_
  -- position Q of the flat row is entry (Q / 192, Q % 192) of the [64, 192] array
  refine (shapeCast_apply _ shapeCasts_S64x192_S12288 (ix1 Q)
    (ix2 (⟨Q.val / 192, by omega⟩ : Fin 64) (⟨Q.val % 192, by omega⟩ : Fin 192)) (by
    rewrite [Shape.rowMajor_val_two, Shape.rowMajor_val_one]
    show Q.val / 192 * 192 + Q.val % 192 = Q.val
    omega)).trans ?_
  -- which the transpose reads at (Q % 192, Q / 192) of the [192, 64] array
  refine (transpose_apply [1, 0] _ transposes_S192x64_S64x192_1_0 _
    (ix2 (⟨Q.val % 192, by omega⟩ : Fin 192) (⟨Q.val / 192, by omega⟩ : Fin 64)) (fun b => match b with
    | ⟨0, _⟩ => rfl
    | ⟨1, _⟩ => rfl)).trans ?_
  -- entry (Q % 192) * 64 + Q / 192 of b
  exact shapeCast_apply _ shapeCasts_S12288_S192x64 _ (ix1 ⟨(Q.val % 192) * 64 + Q.val / 192, srcCol_lt Q⟩) (by
    rewrite [Shape.rowMajor_val_one, Shape.rowMajor_val_two]
    rfl)

end Cert.KernelIdeal.HostIn

end
-- ==== Proof.Accum.lean ====
/-
  The accumulator across the grid. The grid's 256 points are (i, j, s) with s the fastest axis: point
  t has s = t % 8, j = t / 8 % 8, i = t / 64. Within one run of eight consecutive points (fixed i and j)
  the scratch buffer is reset at s = 0 and then receives, step by step, the product of the [1024, 512] block
  (i, s) of the left operand with the [512, 1536] block (s, j) of the right operand; so after the step
  s = 7 it holds zero plus the eight partial products, and the output block written back there is that
  plus the bias row's block j.
-/
import proofs.«150940_j3874060501841_2_alg».proof.Proof.Body
import proofs.«150940_j3874060501841_2_alg».proof.Proof.HostIn
import Idealize.ShloMosaic.Lib.Pipeline.Value

noncomputable section

namespace Cert.KernelIdeal.Accum

open Idealize.ShloMosaic Idealize.ShloMosaic.TcCoe Idealize.SL.Sem
open Idealize.ShloMosaic.ValueIdx Idealize.ShloMosaic.Pipeline
open Cert.KernelIdeal Cert.KernelIdeal.Gen Cert.KernelIdeal.Body Cert.KernelIdeal.HostIn
open scoped BigOperators

variable (m : (ℓ : Loc nD τ sig) → Buf (Elt Ideal) ℓ) (c : Dev nD)

/-- The block index of each window at point t, decided over the grid. -/
theorem idx_facts : ∀ t : Fin cfg0.N,
    win0_0.index t (0 : Fin 2) = t.val / 64 ∧ win0_0.index t (1 : Fin 2) = t.val % 8
    ∧ win0_1.index t (0 : Fin 2) = t.val % 8 ∧ win0_1.index t (1 : Fin 2) = t.val / 8 % 8
    ∧ win0_2.index t (0 : Fin 2) = 0 ∧ win0_2.index t (1 : Fin 2) = t.val / 8 % 8
    ∧ win0_3.index t (0 : Fin 2) = t.val / 64 ∧ win0_3.index t (1 : Fin 2) = t.val / 8 % 8 :=
  (by decide +kernel : ∀ t : Fin grid0.N, _)

/-- The left block at point t, entry (r, kk), is the left operand at row (t / 64) * 1024 + r, column (t % 8) * 512 + kk. -/
theorem lhs_block (t : Fin cfg0.N) (r : Fin 1024) (kk : Fin 512) (R K : Fin 4096)
    (hR : R.val = t.val / 64 * 1024 + r.val) (hK : K.val = t.val % 8 * 512 + kk.val) :
    (iblk m c 0 t : S1024x512.Idx → EReal) (ix2 r kk) = lhsArr m c (ix2 R K) := by
  unfold iblk
  rw [View.read_apply]
  show V m c main_v11 _ = V m c main_v11 _
  congr 1
  funext a; apply Fin.ext
  obtain ⟨e0, e1, -⟩ := idx_facts t
  match a with
  | ⟨0, _⟩ => show win0_0.index t 0 * 1024 + 1 * r.val = R.val; rw [e0, hR]; omega
  | ⟨1, _⟩ => show win0_0.index t 1 * 512 + 1 * kk.val = K.val; rw [e1, hK]; omega

/-- The right block at point t, entry (kk, q), is the right operand at row (t % 8) * 512 + kk, column (t / 8 % 8) * 1536 + q. -/
theorem rhs_block (t : Fin cfg0.N) (kk : Fin 512) (q : Fin 1536) (K : Fin 4096) (Q : Fin 12288)
    (hK : K.val = t.val % 8 * 512 + kk.val) (hQ : Q.val = t.val / 8 % 8 * 1536 + q.val) :
    (iblk m c 1 t : S512x1536.Idx → EReal) (ix2 kk q) = rhsArr m c (ix2 K Q) := by
  unfold iblk
  rw [View.read_apply]
  show V m c main_v12 _ = V m c main_v12 _
  congr 1
  funext a; apply Fin.ext
  obtain ⟨-, -, e0, e1, -⟩ := idx_facts t
  match a with
  | ⟨0, _⟩ => show win0_1.index t 0 * 512 + 1 * kk.val = K.val; rw [e0, hK]; omega
  | ⟨1, _⟩ => show win0_1.index t 1 * 1536 + 1 * q.val = Q.val; rw [e1, hQ]; omega

/-- The bias block at point t, entry (0, q), is the bias row at column (t / 8 % 8) * 1536 + q. -/
theorem bias_block (t : Fin cfg0.N) (z : Fin 1) (q : Fin 1536) (Q : Fin 12288)
    (hQ : Q.val = t.val / 8 % 8 * 1536 + q.val) :
    (iblk m c 2 t : S1x1536.Idx → EReal) (ix2 z q) = biasArr m c (ix2 z Q) := by
  unfold iblk
  rw [View.read_apply]
  show V m c main_v13 _ = V m c main_v13 _
  congr 1
  funext a; apply Fin.ext
  obtain ⟨-, -, -, -, e0, e1, -⟩ := idx_facts t
  match a with
  | ⟨0, _⟩ => show win0_2.index t 0 * 1 + 1 * z.val = z.val; rw [e0]; omega
  | ⟨1, _⟩ => show win0_2.index t 1 * 1536 + 1 * q.val = Q.val; rw [e1, hQ]; omega

/-! ## The scratch after each point -/

/-- The three input blocks of point n, as arrays of extended reals. -/
abbrev lblk (n : ℕ) (h : n < cfg0.N) : S1024x512.Idx → EReal := iblk m c 0 ⟨n, h⟩
abbrev rblk (n : ℕ) (h : n < cfg0.N) : S512x1536.Idx → EReal := iblk m c 1 ⟨n, h⟩
abbrev bblk (n : ℕ) (h : n < cfg0.N) : S1x1536.Idx → EReal := iblk m c 2 ⟨n, h⟩

/-- What the first step of a run leaves in the scratch: zero plus the product of the point's blocks. -/
def reset (n : ℕ) (h : n < cfg0.N) : S1024x1536.Idx → EReal :=
  k0_pay2 (F := Ideal) (k0_pay1 (F := Ideal)) (lblk m c n h) (rblk m c n h)

/-- What a later step leaves there: what the step before left plus the product of the point's blocks. -/
def step (n : ℕ) (h : n < cfg0.N) (acc : S1024x1536.Idx → EReal) : S1024x1536.Idx → EReal :=
  k0_pay2 (F := Ideal) acc (lblk m c n h) (rblk m c n h)

/-- The scratch after point n. -/
def scratchAt (n : ℕ) (h : n < cfg0.N) : S1024x1536.Idx → EReal := (outsAt0 m c n h).2

theorem scratch_reset (n : ℕ) (h : n < cfg0.N) (h0 : n % 8 = 0) : scratchAt m c n h = reset m c n h := by
  have h7 : ¬n % 8 = 7 := by omega
  unfold scratchAt reset
  rw [outsAt0_A m c ⟨n, h⟩ h0 h7]
  dsimp only
  exact scratch_A (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) scM0_0 (Memref.isWhole_whole _)
    ((hcond0_0 ⟨n, h⟩).mpr h0) (fun hh => h7 ((hcond0_1 ⟨n, h⟩).mp hh))
    (iblk m c 0 ⟨n, h⟩) (iblk m c 1 ⟨n, h⟩) (iblk m c 2 ⟨n, h⟩)

theorem scratch_step (n : ℕ) (h : n + 1 < cfg0.N) (h0 : ¬(n + 1) % 8 = 0) :
    scratchAt m c (n + 1) h = step m c (n + 1) h (scratchAt m c n (Nat.lt_of_succ_lt h)) := by
  unfold scratchAt step
  by_cases h7 : (n + 1) % 8 = 7
  · rw [outsAt0_C m c ⟨n + 1, h⟩ h0 h7]
    dsimp only
    exact scratch_C (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) ((hcond0_1 ⟨n + 1, h⟩).mpr h7)
      (iblk m c 0 ⟨n + 1, h⟩) (iblk m c 1 ⟨n + 1, h⟩) (iblk m c 2 ⟨n + 1, h⟩) (outsAt0 m c n (Nat.lt_of_succ_lt h)).2
  · rw [outsAt0_B m c ⟨n + 1, h⟩ h0 h7]
    dsimp only
    exact scratch_B (F := Ideal) c (grid0.coords ⟨n + 1, h⟩) (ms0_0 ⟨n + 1, h⟩) (hs0_0 ⟨n + 1, h⟩) (ms0_1 ⟨n + 1, h⟩) (hs0_1 ⟨n + 1, h⟩)
      (ms0_2 ⟨n + 1, h⟩) (hs0_2 ⟨n + 1, h⟩) (ms0_3 ⟨n + 1, h⟩) (hs0_3 ⟨n + 1, h⟩) scM0_0 (Memref.isWhole_whole _)
      (fun hh => h0 ((hcond0_0 ⟨n + 1, h⟩).mp hh)) (fun hh => h7 ((hcond0_1 ⟨n + 1, h⟩).mp hh))
      (iblk m c 0 ⟨n + 1, h⟩) (iblk m c 1 ⟨n + 1, h⟩) (iblk m c 2 ⟨n + 1, h⟩) (outsAt0 m c n (Nat.lt_of_succ_lt h)).2

/-- The product of point n's blocks at an index (zero for a number that is no point). -/
def addend (n : ℕ) (i : S1024x1536.Idx) : EReal :=
  if h : n < cfg0.N then ∑ kk : Fin 512, lblk m c n h (ix2 (i 0) kk) * rblk m c n h (ix2 kk (i 1)) else 0

theorem reset_apply (n : ℕ) (h : n < cfg0.N) (i : S1024x1536.Idx) : reset m c n h i = 0 + addend m c n i := by
  obtain ⟨r, q, rfl⟩ : ∃ (r : Fin 1024) (q : Fin 1536), i = ix2 r q := ⟨i 0, i 1, eq_ix2 i⟩
  unfold reset addend
  rw [pay2_apply, pay1_apply, dif_pos h]

theorem step_apply (n : ℕ) (h : n < cfg0.N) (acc : S1024x1536.Idx → EReal) (i : S1024x1536.Idx) :
    step m c n h acc i = acc i + addend m c n i := by
  obtain ⟨r, q, rfl⟩ : ∃ (r : Fin 1024) (q : Fin 1536), i = ix2 r q := ⟨i 0, i 1, eq_ix2 i⟩
  unfold step addend
  rw [pay2_apply, dif_pos h]

/-- The scratch after point t: zero plus the partial products of the run's points up to t. -/
theorem scratch_fold (t : Fin cfg0.N) (i : S1024x1536.Idx) :
    scratchAt m c t.val t.isLt i = 0 + ∑ s ∈ Finset.range (t.val % 8 + 1), addend m c (8 * (t.val / 8) + s) i := by
  have h' : 8 * (t.val / 8) + t.val % 8 < cfg0.N := by rw [Nat.div_add_mod]; exact t.isLt
  rw [eq_accAt_of_mod (scratchAt m c) 8 (reset m c) (step m c) (scratch_reset m c) (scratch_step m c) (by decide) t.val t.isLt h']
  exact accAt_add_apply (reset m c) (step m c) (fun _ => 0) (addend m c) (8 * (t.val / 8)) 7
    (fun h i => reset_apply m c _ h i) (fun n h acc i _ _ => step_apply m c n h acc i) (t.val % 8) (by omega) h' i

/-- The output block written back at the last point of a run: the full accumulator plus the bias block's row. -/
theorem out_last (t : Fin cfg0.N) (h7 : t.val % 8 = 7) (r : Fin 1024) (q : Fin 1536) :
    ((outsAt0 m c t.val t.isLt).1 : S1024x1536.Idx → EReal) (ix2 r q)
      = (0 + ∑ s ∈ Finset.range 8, addend m c (8 * (t.val / 8) + s) (ix2 r q))
        + bblk m c t.val t.isLt (ix2 (0 : Fin 1) q) := by
  have h0 : ¬t.val % 8 = 0 := by omega
  have e1 : (outsAt0 m c t.val t.isLt).1 = k0_pay3 (F := Ideal) (scratchAt m c t.val t.isLt) (bblk m c t.val t.isLt) := by
    unfold scratchAt
    rw [outsAt0_C m c t h0 h7]
    dsimp only
    rw [scratch_C (F := Ideal) c (grid0.coords t) (ms0_0 t) (hs0_0 t) (ms0_1 t) (hs0_1 t)
      (ms0_2 t) (hs0_2 t) (ms0_3 t) (hs0_3 t) scM0_0 (Memref.isWhole_whole _)
      (fun hh => h0 ((hcond0_0 t).mp hh)) ((hcond0_1 t).mpr h7)
      (iblk m c 0 t) (iblk m c 1 t) (iblk m c 2 t)]
    exact out_C (F := Ideal) c (grid0.coords t) (ms0_0 t) (hs0_0 t) (ms0_1 t) (hs0_1 t)
      (ms0_2 t) (hs0_2 t) (ms0_3 t) (hs0_3 t) scM0_0 (Memref.isWhole_whole _)
      (fun hh => h0 ((hcond0_0 t).mp hh)) ((hcond0_1 t).mpr h7)
      (iblk m c 0 t) (iblk m c 1 t) (iblk m c 2 t) _
  rw [e1, pay3_apply, scratch_fold, h7]

end Cert.KernelIdeal.Accum

end
-- ==== Proof.Region.lean ====
/-
  What the region writes back, block by block, as one function of the program's arguments. The output block
  written back at the last point of run (i, j) holds at (r, q)

      (0 + sum over s < 8 of sum over kk < 512 of L(R, s * 512 + kk) * Rt(s * 512 + kk, Q)) + bias(Q),

  with R = i * 1024 + r, Q = j * 1536 + q, L the zero-padded left operand and Rt the zero-padded right operand.
  The padded positions contribute zero times something, which is zero on the extended reals, and the eight
  blocks of 512 regroup into one sum: the entry is the masked linear layer's entry at row R and (permuted)
  column Q, read at the source column (Q % 192) * 64 + Q / 192.
-/
import proofs.«150940_j3874060501841_2_alg».proof.Proof.Accum
import proofs.«150940_j3874060501841_2_alg».proof.Proof.Spec

noncomputable section

namespace Cert.KernelIdeal.Region

open Idealize.ShloMosaic Idealize.ShloMosaic.TcCoe Idealize.SL.Sem
open Idealize.ShloMosaic.ValueIdx Idealize.ShloMosaic.Pipeline
open Cert.KernelIdeal Cert.KernelIdeal.Gen Cert.KernelIdeal.Body Cert.KernelIdeal.HostIn Cert.KernelIdeal.Accum
open scoped BigOperators

variable (m : (ℓ : Loc nD τ sig) → Buf (Elt Ideal) ℓ) (c : Dev nD)

/-- The source column of the permuted column Q, and its mask group. -/
def src (Q : Fin 12288) : Fin 12288 := ⟨(Q.val % 192) * 64 + Q.val / 192, srcCol_lt Q⟩
def srcGrp (Q : Fin 12288) : Fin 64 := ⟨((Q.val % 192) * 64 + Q.val / 192) / 192, srcGroup_lt Q⟩

/-- The region's result array [4096, 12288] as a function of the arguments. -/
def flat : S4096x12288.Idx → EReal := fun j =>
  (∑ k : Fin 4000, argX m c (ix2 (j 0) k) * (argW m c (ix2 k (src (j 1))) * argMask m c (ix2 k (srcGrp (j 1)))))
    + argB m c (ix1 (src (j 1)))

/-- Row R of the padded left operand and column Q of the padded right operand, as functions of a position. -/
def lrow (R : Fin 4096) (k : ℕ) : EReal := if h : k < 4096 then lhsArr m c (ix2 R ⟨k, h⟩) else 0
def rcol (Q : Fin 12288) (k : ℕ) : EReal := if h : k < 4096 then rhsArr m c (ix2 ⟨k, h⟩ Q) else 0

theorem lrow_pad (R : Fin 4096) (k : ℕ) (hk : 4000 ≤ k) : lrow m c R k = 0 := by
  unfold lrow
  by_cases h : k < 4096
  · rw [dif_pos h, lhs_apply, dif_neg (by show ¬k < 4000; omega)]
  · rw [dif_neg h]

theorem lrow_real (R : Fin 4096) (k : Fin 4000) : lrow m c R k.val = argX m c (ix2 R k) := by
  unfold lrow
  have h : k.val < 4096 := by have := k.isLt; omega
  rw [dif_pos h, lhs_apply, dif_pos (show k.val < 4000 from k.isLt)]

theorem rcol_real (Q : Fin 12288) (k : Fin 4000) :
    rcol m c Q k.val = argW m c (ix2 k (src Q)) * argMask m c (ix2 k (srcGrp Q)) := by
  unfold rcol
  have h : k.val < 4096 := by have := k.isLt; omega
  rw [dif_pos h, rhs_apply, dif_pos (show k.val < 4000 from k.isLt)]
  rfl

/-- One partial product of the run ending at point t, at (r, q), over the padded row and column. -/
theorem addend_eq (t : Fin cfg0.N) (h7 : t.val % 8 = 7) (s : ℕ) (hs : s < 8) (r : Fin 1024) (q : Fin 1536)
    (R : Fin 4096) (Q : Fin 12288) (hR : R.val = t.val / 64 * 1024 + r.val) (hQ : Q.val = t.val / 8 % 8 * 1536 + q.val) :
    addend m c (8 * (t.val / 8) + s) (ix2 r q)
      = ∑ kk : Fin 512, lrow m c R (s * 512 + kk.val) * rcol m c Q (s * 512 + kk.val) := by
  have hN : cfg0.N = 256 := N_0
  have ht : t.val < 256 := lt_of_lt_of_eq t.isLt hN
  have hn : 8 * (t.val / 8) + s < cfg0.N := lt_of_lt_of_eq (by omega : 8 * (t.val / 8) + s < 256) hN.symm
  unfold addend
  rw [dif_pos hn]
  refine Finset.sum_congr rfl fun kk _ => ?_
  have hk : s * 512 + kk.val < 4096 := by have := kk.isLt; omega
  unfold lrow rcol
  rw [dif_pos hk, dif_pos hk]
  congr 1
  · exact lhs_block m c ⟨8 * (t.val / 8) + s, hn⟩ r kk R ⟨s * 512 + kk.val, hk⟩ (by dsimp only; omega) (by dsimp only; omega)
  · exact rhs_block m c ⟨8 * (t.val / 8) + s, hn⟩ kk q ⟨s * 512 + kk.val, hk⟩ Q (by dsimp only; omega) (by dsimp only; omega)

/-- The block written back at the last point t of a run, at (r, q), is the result function at (R, Q). -/
theorem block_value (t : Fin cfg0.N) (h7 : t.val % 8 = 7) (r : Fin 1024) (q : Fin 1536)
    (R : Fin 4096) (Q : Fin 12288) (hR : R.val = t.val / 64 * 1024 + r.val) (hQ : Q.val = t.val / 8 % 8 * 1536 + q.val) :
    ((outsAt0 m c t.val t.isLt).1 : S1024x1536.Idx → EReal) (ix2 r q) = flat m c (ix2 R Q) := by
  rw [out_last m c t h7 r q]
  rw [Finset.sum_congr rfl fun s hs => addend_eq m c t h7 s (Finset.mem_range.mp hs) r q R Q hR hQ]
  rw [Cert.MaskedLinear.blocks_padded (lrow m c R) (rcol m c Q) (lrow_pad m c R)]
  rw [show bblk m c t.val t.isLt (ix2 (0 : Fin 1) q) = biasArr m c (ix2 (0 : Fin 1) Q) from bias_block m c t (0 : Fin 1) q Q hQ, bias_apply]
  unfold flat
  congr 1
  exact Finset.sum_congr rfl fun k _ => by rw [lrow_real, rcol_real]

end Cert.KernelIdeal.Region

end
-- ==== Proof.Cover.lean ====
/-
  The blocks of the result window cover the whole [4096, 12288] result array. On the [4, 8, 8] grid the
  point t = (i * 8 + j) * 8 + s holds block (i, j) = (t / 64, t / 8 % 8) of size [1024, 1536], and the block is
  written back at the points with s = t % 8 = 7. An index (p, q) of the array lies in block
  (p / 1024, q / 1536), which the point ((p / 1024) * 8 + q / 1536) * 8 + 7 writes back.
-/
import proofs.«150940_j3874060501841_2_alg».proof.Proof.Gen.KernelIdeal.Frame
import Idealize.ShloMosaic.Lib.Pipeline.Value

noncomputable section

namespace Cert.KernelIdeal.Cover

open Idealize.ShloMosaic Idealize.ShloMosaic.TcCoe Idealize.SL.Sem Idealize.ShloMosaic.Pipeline Cert.KernelIdeal Cert.KernelIdeal.Gen

/-- The result window's block index at point t is (t / 64, t / 8 % 8): decided over the 256 points. -/
theorem out_idx : ∀ t : Fin cfg0.N, win0_3.index t (0 : Fin 2) = t.val / 64 ∧ win0_3.index t (1 : Fin 2) = t.val / 8 % 8 :=
  (by decide +kernel : ∀ t : Fin grid0.N, win0_3.index t (0 : Fin 2) = t.val / 64 ∧ win0_3.index t (1 : Fin 2) = t.val / 8 % 8)

/-- An index of the array is in point t's block iff each coordinate is in the block's range on its axis. -/
theorem mem_blk (t : Fin cfg0.N) (i : S4096x12288.Idx) :
    i ∈ ((cfg0.win 3).blk t).view.set ↔ ∀ a : Fin 2, win0_3.index t a * S1024x1536.size a ≤ (i a).val ∧ (i a).val < win0_3.index t a * S1024x1536.size a + S1024x1536.size a := by
  show i ∈ ((View.whole main_v14).slice (win0_3.rect t)).set ↔ _
  rw [View.set_slice_whole, Rect.mem_set_unit]
  exact Iff.rfl

/-- Every index of the result array is in the block some point writes back. -/
theorem cover (i : S4096x12288.Idx) : ∃ t : Fin cfg0.N, (cfg0.win 3).flush t = true ∧ i ∈ ((cfg0.win 3).blk t).view.set := by
  have hi0 : (i 0).val < 4096 := (i 0).isLt
  have hi1 : (i 1).val < 12288 := (i 1).isLt
  obtain ⟨t, ht⟩ : ∃ t : Fin cfg0.N, t.val = ((i 0).val / 1024 * 8 + (i 1).val / 1536) * 8 + 7 :=
    ⟨⟨((i 0).val / 1024 * 8 + (i 1).val / 1536) * 8 + 7, by have : cfg0.N = 256 := N_0; omega⟩, rfl⟩
  obtain ⟨e0, e1⟩ := out_idx t
  refine ⟨t, (flush0_3 t).mpr (by omega), ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1536 ≤ (i 1).val ∧ (i 1).val < win0_3.index t (1 : Fin 2) * 1536 + 1536
    omega

end Cert.KernelIdeal.Cover

end
-- ==== Proof.Tail.lean ====
/-
  The program's last host operation regroups the region's result array [4096, 12288] as [4096, 64, 192]
  (row-major, the same elements in the same order): the result buffer after the run is that regrouping of
  the result array as the region leaves it. No other host operation follows the region, and the regrouping
  reads only the result array, which is one of the region's windows' arrays.
-/
import proofs.«150940_j3874060501841_2_alg».proof.Proof.Gen.KernelIdeal.Frame
import proofs.«150940_j3874060501841_2_alg».proof.Proof.Spec
import Idealize.ShloMosaic.Lib.Pipeline.Value
import Idealize.ShloMosaic.Lib.StableHlo.Run

noncomputable section

namespace Cert.KernelIdeal.Tail

open Idealize.ShloMosaic Idealize.ShloMosaic.TcCoe Idealize.SL.Sem Idealize.ShloMosaic.Pipeline Cert.KernelIdeal Cert.KernelIdeal.Gen
open Idealize.ShloMosaic.StableHlo Idealize.ShloMosaic.ValueIdx

variable {F : FTy → Type} [FloatOps F] (m : (ℓ : Loc nD τ sig) → Buf (Elt F) ℓ) (c : Dev nD)

/-- The result buffer after the run is the regrouping of the region's result array. -/
theorem tail_eq (Y : S4096x12288.Idx → Elt F .f32) (hY : (dats m 0 c).arrAt 3 cfg0.N = Y) :
    Pipeline.afterTail₀ cfgs (dats m) 0 (V0 m) [hostOps1] c main_v15 = shapeCast S4096x64x192 Y shapeCasts_S4096x12288_S4096x64x192 := by
  -- the result array is the region's window 3, which the region leaves at its final contents
  have hW : Pipeline.withArrays (cfgs 0).spec c (V0 m c) (fun w => (dats m 0 c).arrAt w (cfgs 0).N)
      (Proc.devRef .tc main_v14) = Y :=
    (Pipeline.withArrays_arr spec0 launch0.win.arr_inj c _ _ 3).trans hY
  unfold Pipeline.afterTail₀
  show StableHlo.after hostOps1 _ (Proc.devRef .tc main_v15) = _
  after_results
  funext i
  exact congrArg (fun y : S4096x12288.Idx → Elt F .f32 =>
    shapeCast S4096x64x192 y shapeCasts_S4096x12288_S4096x64x192 i) hW

end Cert.KernelIdeal.Tail

end
-- ==== Proof.Final.lean ====
/-
  The kernel program's result as a function of its arguments. Every index of the region's [4096, 12288]
  result array lies in the block written back at the last point of exactly one run, and that block holds the
  result function's values there; so the array ends holding the result function, and the program's last
  operation regroups its columns Q = w * 192 + a as (w, a), whose source column (Q % 192) * 64 + Q / 192 is
  a * 64 + w: the masked linear layer with regrouped columns.
-/
import proofs.«150940_j3874060501841_2_alg».proof.Proof.Region
import proofs.«150940_j3874060501841_2_alg».proof.Proof.Cover
import proofs.«150940_j3874060501841_2_alg».proof.Proof.Tail

noncomputable section

namespace Cert.KernelIdeal.Final

open Idealize.ShloMosaic Idealize.ShloMosaic.TcCoe Idealize.SL.Sem
open Idealize.ShloMosaic.ValueIdx Idealize.ShloMosaic.Pipeline
open Cert.KernelIdeal Cert.KernelIdeal.Gen Cert.KernelIdeal.HostIn Cert.KernelIdeal.Accum Cert.KernelIdeal.Region
open scoped BigOperators

variable (m : (ℓ : Loc nD τ sig) → Buf (Elt Ideal) ℓ) (ρ : Dev nD → PrngReg) (c : Dev nD)

/-- What a point that writes the output block back writes is its block of the result function. -/
theorem flushed_eq (t : Fin cfg0.N) (hf : (cfg0.win 3).flush t = true) :
    (dats m 0 c).flushed 3 t = ((cfg0.win 3).blk t).view.read (Elt Ideal) (flat m c) := by
  have h7 : t.val % 8 = 7 := (flush0_3 t).mp hf
  show (cfg0.win 3).cut (grid0.coords t) ((dats m 0 c).after 3 t) = _
  rw [after0_3]
  funext y
  show ((outsAt0 m c t.val t.isLt).1 : S1024x1536.Idx → EReal) y = flat m c (((cfg0.win 3).blk t).view.emb y)
  obtain ⟨-, -, -, -, -, -, e0, e1⟩ := idx_facts t
  have hR : ((((cfg0.win 3).blk t).view.emb y) 0).val = t.val / 64 * 1024 + (y 0).val := by
    show win0_3.index t 0 * 1024 + 1 * (y 0).val = _
    rw [e0]; omega
  have hQ : ((((cfg0.win 3).blk t).view.emb y) 1).val = t.val / 8 % 8 * 1536 + (y 1).val := by
    show win0_3.index t 1 * 1536 + 1 * (y 1).val = _
    rw [e1]; omega
  have hv := block_value m c t h7 (y 0) (y 1) ((((cfg0.win 3).blk t).view.emb y) 0) ((((cfg0.win 3).blk t).view.emb y) 1) hR hQ
  exact (congrArg ((outsAt0 m c t.val t.isLt).1 : S1024x1536.Idx → EReal) (eq_ix2 (y : S1024x1536.Idx))).trans
    (hv.trans (congrArg (flat m c) (eq_ix2 ((((cfg0.win 3).blk t).view.emb y) : S4096x12288.Idx)).symm))

/-- The region's result array ends holding the result function. -/
theorem final : (dats m 0 c).arrAt 3 cfg0.N = flat m c :=
  (dats m 0 c).arrAt_eq_of_cover 3 (flat m c) (flushed_eq m c) Cert.KernelIdeal.Cover.cover

/-- The program's result buffer ends holding the masked linear layer with regrouped columns. -/
theorem result_eq :
    Pipeline.afterTail₀ cfgs (dats m) 0 (V0 m) [hostOps1] c main_v15
      = Cert.MaskedLinear.G (argX m c) (argMask m c) (argW m c) (argB m c) := by
  rw [Cert.KernelIdeal.Tail.tail_eq m c (flat m c) (final m c)]
  funext i
  obtain ⟨r, w, a, rfl⟩ : ∃ (r : Fin 4096) (w : Fin 64) (a : Fin 192), i = ix3 r w a := ⟨i 0, i 1, i 2, eq_ix3 i⟩
  rw [Cert.MaskedLinear.regroup_apply]
  have hw := w.isLt
  have ha := a.isLt
  have es : src ⟨w.val * 192 + a.val, by omega⟩ = Cert.MaskedLinear.col w a := Fin.ext (by
    show (w.val * 192 + a.val) % 192 * 64 + (w.val * 192 + a.val) / 192 = a.val * 64 + w.val; omega)
  have eg : srcGrp ⟨w.val * 192 + a.val, by omega⟩ = Cert.MaskedLinear.grp w a := Fin.ext (by
    show ((w.val * 192 + a.val) % 192 * 64 + (w.val * 192 + a.val) / 192) / 192 = (a.val * 64 + w.val) / 192; omega)
  show flat m c (ix2 r _) = _
  unfold flat Cert.MaskedLinear.G
  show (∑ k : Fin 4000, argX m c (ix2 r k) * (argW m c (ix2 k (src ⟨w.val * 192 + a.val, _⟩)) * argMask m c (ix2 k (srcGrp ⟨w.val * 192 + a.val, _⟩))))
      + argB m c (ix1 (src ⟨w.val * 192 + a.val, _⟩))
    = (∑ k : Fin 4000, argX m c (ix2 r k) * (argW m c (ix2 k (Cert.MaskedLinear.col w a)) * argMask m c (ix2 k (Cert.MaskedLinear.grp w a))))
      + argB m c (ix1 (Cert.MaskedLinear.col w a))
  rw [es, eg]

/-- The run, read: the result buffer at the masked linear layer of the arguments, the arguments unchanged. -/
theorem run : θ_run defs (onTc (τ := τ) (main (F := Ideal))) ⟨m, fun _ => 0, ρ⟩ fun r => ∀ c : Dev nD,
      r.2.mem ((c.tc : Thread nD τ).loc main_v15) = Cert.MaskedLinear.G (argX m c) (argMask m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v15 (Pipeline.mem_restRefs_of main_v15 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.lean ====
/-
  The certificate of a masked linear layer: out = x @ (W * repeat(mask, 192, axis 1)) + b with its 12288 output
  columns regrouped as [64, 192] (entry (w, a) is column a * 64 + w), for x : [4096, 4000], mask : [4000, 64],
  W : [4000, 12288], b : [12288].

  The reference computes the product and the bias sum over all columns, then regroups the columns as (a, w) and
  exchanges the two axes. The kernel program instead permutes the columns of the masked weights and of the bias
  first (column w * 192 + a receives column a * 64 + w), pads the contracted axis with zeros from 4000 to 4096,
  and runs one tiled matrix product on a grid (4, 8, 8): for each of the 4 x 8 output blocks [1024, 1536] an
  accumulator is reset, receives the eight partial products over blocks of 512 contracted positions, and is
  written back with the bias added; a final regrouping of the columns w * 192 + a as (w, a) gives the result.

  On the extended reals both are, at entry (r, w, a),
      (sum over k < 4000 of x(r, k) * (W(k, a * 64 + w) * mask(k, (a * 64 + w) / 192))) + b(a * 64 + w):
  a change of float format is the identity, the padded positions contribute zero times something, which is
  zero, and addition is commutative and associative, so eight block sums accumulated from zero are the one sum.
  No step needs the inputs to be finite. The three frames are the generated ones (the reference's is its
  generated run with the result dropped), and the kernel's idealization rewrote nothing.
-/
import proofs.«150940_j3874060501841_2_alg».proof.Defs
import proofs.«150940_j3874060501841_2_alg».proof.Proof.Gen.Kernel
import proofs.«150940_j3874060501841_2_alg».proof.Proof.Gen.Kernel.Frame
import proofs.«150940_j3874060501841_2_alg».proof.Proof.Gen.KernelIdeal
import proofs.«150940_j3874060501841_2_alg».proof.Proof.Gen.KernelIdeal.Frame
import proofs.«150940_j3874060501841_2_alg».proof.Proof.Gen.ReferenceIdeal
import proofs.«150940_j3874060501841_2_alg».proof.Proof.Gen.ReferenceIdeal.Run
import proofs.«150940_j3874060501841_2_alg».proof.Proof.Gen.ReferenceIdeal.Read
import proofs.«150940_j3874060501841_2_alg».proof.Proof.Gen.Pre_finite_inputs
import proofs.«150940_j3874060501841_2_alg».proof.Proof.RefSpec
import proofs.«150940_j3874060501841_2_alg».proof.Proof.Final
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the masked linear layer of the (agreeing) arguments in their result buffers. -/
theorem algebraic : Cert.algebraic_KernelIdeal_ReferenceIdeal := by
  intro m ρ m' ρ' _ hagree
  refine ⟨fun c => Cert.MaskedLinear.G (Cert.KernelIdeal.HostIn.argX m c) (Cert.KernelIdeal.HostIn.argMask m c)
    (Cert.KernelIdeal.HostIn.argW m c) (Cert.KernelIdeal.HostIn.argB m c), Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v8_eq _ _ _ _).trans (Cert.ReferenceIdeal.RefSpec.ref_eq _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
